-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x2097152 : Shape := ⟨2, ![2, 2097152]⟩
abbrev S1x512 : Shape := ⟨2, ![1, 512]⟩
abbrev S128x128 : Shape := ⟨2, ![128, 128]⟩
abbrev S128 : Shape := ⟨1, ![128]⟩
abbrev S128x512 : Shape := ⟨2, ![128, 512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg5 : FVec F S128x512 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg5
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S131072x128 .f32) (main_arg1 : IVec S2x2097152 32) (main_arg2 : FVec F S1x512 .f32) (main_arg3 : FVec F S128x128 .f32) (main_arg4 : FVec F S128 .f32) (main_arg5 : FVec F S128x512 .f32) (main_arg6 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S131072x128 : Shape := ⟨2, ![131072, 128]⟩
abbrev S2x2097152 : Shape := ⟨2, ![2, 2097152]⟩
abbrev S1x512 : Shape := ⟨2, ![1, 512]⟩
abbrev S128x128 : Shape := ⟨2, ![128, 128]⟩
abbrev S128 : Shape := ⟨1, ![128]⟩
abbrev S128x512 : Shape := ⟨2, ![128, 512]⟩
abbrev S1x2097152 : Shape := ⟨2, ![1, 2097152]⟩
abbrev S2097152 : Shape := ⟨1, ![2097152]⟩
abbrev S4096x128 : Shape := ⟨2, ![4096, 128]⟩
abbrev S_ : Shape := ⟨0, ![]⟩
abbrev S131072 : Shape := ⟨1, ![131072]⟩
abbrev S2097152x1 : Shape := ⟨2, ![2097152, 1]⟩
abbrev S2097152x128 : Shape := ⟨2, ![2097152, 128]⟩
abbrev S512x128 : Shape := ⟨2, ![512, 128]⟩
abbrev S1x128 : Shape := ⟨2, ![1, 128]⟩

abbrev nBuf : Space → Nat
  | .hbm => 109
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S2x2097152, .i32⟩
  | .hbm, ⟨2, _⟩ => ⟨S1x512, .f32⟩
  | .hbm, ⟨3, _⟩ => ⟨S128x128, .f32⟩
  | .hbm, ⟨4, _⟩ => ⟨S128, .f32⟩
  | .hbm, ⟨5, _⟩ => ⟨S128x512, .f32⟩
  | .hbm, ⟨6, _⟩ => ⟨S128, .f32⟩
  | .hbm, ⟨7, _⟩ => ⟨S1x2097152, .i32⟩
  | .hbm, ⟨8, _⟩ => ⟨S2097152, .i32⟩
  | .hbm, ⟨9, _⟩ => ⟨S1x2097152, .i32⟩
  | .hbm, ⟨10, _⟩ => ⟨S2097152, .i32⟩
  | .hbm, ⟨11, _⟩ => ⟨S128x128, .f32⟩
  | .hbm, ⟨12, _⟩ => ⟨S131072x128, .f32⟩
  | .hbm, ⟨13, _⟩ => ⟨S_, .f32⟩
  | .hbm, ⟨14, _⟩ => ⟨S2097152, .f32⟩
  | .hbm, ⟨15, _⟩ => ⟨S_, .f32⟩
  | .hbm, ⟨16, _⟩ => ⟨S131072, .f32⟩
  | .hbm, ⟨17, _⟩ => ⟨S2097152x1, .i32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .i1⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S2097152x1, .i32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .i1⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S_, .f32⟩
  | .hbm, ⟨40, _⟩ => ⟨S_, .f32⟩
  | .hbm, ⟨41, _⟩ => ⟨S131072, .f32⟩
  | .hbm, ⟨42, _⟩ => ⟨S131072, .f32⟩
  | .hbm, ⟨43, _⟩ => ⟨S_, .i32⟩
  | .hbm, ⟨44, _⟩ => ⟨S2097152, .i32⟩
  | .hbm, ⟨45, _⟩ => ⟨S2097152, .i1⟩
  | .hbm, ⟨46, _⟩ => ⟨S_, .i32⟩
  | .hbm, ⟨47, _⟩ => ⟨S2097152, .i32⟩
  | .hbm, ⟨48, _⟩ => ⟨S2097152, .i32⟩
  | .hbm, ⟨49, _⟩ => ⟨S2097152, .i32⟩
  | .hbm, ⟨50, _⟩ => ⟨S2097152x1, .i32⟩
  | .hbm, ⟨51, _⟩ => ⟨S2097152x128, .f32⟩
  | .hbm, ⟨52, _⟩ => ⟨S_, .i32⟩
  | .hbm, ⟨53, _⟩ => ⟨S2097152, .i32⟩
  | .hbm, ⟨54, _⟩ => ⟨S2097152, .i1⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S2097152, .i32⟩
  | .hbm, ⟨59, _⟩ => ⟨S2097152x1, .i32⟩
  | .hbm, ⟨60, _⟩ => ⟨S2097152, .f32⟩
  | .hbm, ⟨61, _⟩ => ⟨S2097152x1, .f32⟩
  | .hbm, ⟨62, _⟩ => ⟨S2097152x128, .f32⟩
  | .hbm, ⟨63, _⟩ => ⟨S2097152x128, .f32⟩
  | .hbm, ⟨64, _⟩ => ⟨S_, .f32⟩
  | .hbm, ⟨65, _⟩ => ⟨S131072x128, .f32⟩
  | .hbm, ⟨66, _⟩ => ⟨S2097152x1, .i32⟩
  | .hbm, ⟨67, _⟩ => ⟨S131072x128, .f32⟩
  | .hbm, ⟨68, _⟩ => ⟨S_, .i32⟩
  | .hbm, ⟨69, _⟩ => ⟨S2097152, .i32⟩
  | .hbm, ⟨70, _⟩ => ⟨S2097152, .i1⟩
  | .hbm, ⟨71, _⟩ => ⟨S_, .i32⟩
  | .hbm, ⟨72, _⟩ => ⟨S2097152, .i32⟩
  | .hbm, ⟨73, _⟩ => ⟨S2097152, .i32⟩
  | .hbm, ⟨74, _⟩ => ⟨S2097152, .i32⟩
  | .hbm, ⟨75, _⟩ => ⟨S2097152x1, .i32⟩
  | .hbm, ⟨76, _⟩ => ⟨S2097152x128, .f32⟩
  | .hbm, ⟨77, _⟩ => ⟨S_, .i32⟩
  | .hbm, ⟨78, _⟩ => ⟨S2097152, .i32⟩
  | .hbm, ⟨79, _⟩ => ⟨S2097152, .i1⟩
  | .hbm, ⟨80, _⟩ => ⟨S_, .i32⟩
  | .hbm, ⟨81, _⟩ => ⟨S2097152, .i32⟩
  | .hbm, ⟨82, _⟩ => ⟨S2097152, .i32⟩
  | .hbm, ⟨83, _⟩ => ⟨S2097152, .i32⟩
  | .hbm, ⟨84, _⟩ => ⟨S2097152x1, .i32⟩
  | .hbm, ⟨85, _⟩ => ⟨S2097152, .f32⟩
  | .hbm, ⟨86, _⟩ => ⟨S2097152x1, .f32⟩
  | .hbm, ⟨87, _⟩ => ⟨S2097152x128, .f32⟩
  | .hbm, ⟨88, _⟩ => ⟨S2097152x128, .f32⟩
  | .hbm, ⟨89, _⟩ => ⟨S_, .f32⟩
  | .hbm, ⟨90, _⟩ => ⟨S131072x128, .f32⟩
  | .hbm, ⟨91, _⟩ => ⟨S2097152x1, .i32⟩
  | .hbm, ⟨92, _⟩ => ⟨S131072x128, .f32⟩
  | .hbm, ⟨93, _⟩ => ⟨S1x512, .f32⟩
  | .hbm, ⟨94, _⟩ => ⟨S1x512, .f32⟩
  | .hbm, ⟨95, _⟩ => ⟨S_, .f32⟩
  | .hbm, ⟨96, _⟩ => ⟨S1x512, .f32⟩
  | .hbm, ⟨97, _⟩ => ⟨S1x512, .f32⟩
  | .hbm, ⟨98, _⟩ => ⟨S_, .f32⟩
  | .hbm, ⟨99, _⟩ => ⟨S1x512, .f32⟩
  | .hbm, ⟨100, _⟩ => ⟨S1x512, .f32⟩
  | .hbm, ⟨101, _⟩ => ⟨S1x512, .f32⟩
  | .hbm, ⟨102, _⟩ => ⟨S512x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S131072x128, .f32⟩
  | .hbm, ⟨108, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_9 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_c_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69_0 : Ref sig .tc := ⟨.hbm, 107, rfl⟩
abbrev main_v69_1 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  transposes_S128x128_S128x128_1_0 : S128x128.Transposes [1, 0] S128x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S2097152x1_S2097152x128_0_1 : S2097152x1.BroadcastsInDim S2097152x128 (![0, 1] : Fin 2 → Fin S2097152x128.rank)
  bcast_S_S131072x128 : S_.BroadcastsInDim S131072x128 (![] : Fin 0 → Fin S131072x128.rank)
  bcast_S_S1x512 : S_.BroadcastsInDim S1x512 (![] : Fin 0 → Fin S1x512.rank)
  transposes_S128x512_S512x128_1_0 : S128x512.Transposes [1, 0] S512x128
  bcast_S128_S1x128_1 : S128.BroadcastsInDim S1x128 (![1] : Fin 1 → Fin S1x128.rank)
  shapeCasts_S128_S1x128 : S128.ShapeCasts S1x128
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x128_S4096x128_1_0_0_1_n_n_wf : DotDims.WF S4096x128 S128x128 S4096x128 [1] [0] [0] [1] [] []
  scatter_S131072_S2097152x1_S2097152_n_0_0_1_wf : ScatterDims.WF S131072 S2097152x1 S2097152 [] [0] [0] 1
  gather_S131072x128_S2097152x1_S2097152x128_1_0_n_n_0_1_1128_wf : GatherDims.WF S131072x128 S2097152x1 S2097152x128 [1] [0] [] [0] [] 1 ![1, 128]
  gather_S131072_S2097152x1_S2097152_n_0_n_n_0_1_1_wf : GatherDims.WF S131072 S2097152x1 S2097152 [] [0] [] [0] [] 1 ![1]
  scatter_S131072x128_S2097152x1_S2097152x128_1_0_0_1_wf : ScatterDims.WF S131072x128 S2097152x1 S2097152x128 [1] [0] [0] 1
  dot_S1x512_S512x128_S1x128_1_0_0_1_n_n_wf : DotDims.WF S1x512 S512x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S131072x128.size a
  hwx1_3 : ∀ i : grid1.Coords, EltTy.bits .f32 = 32 ∨ (Rect.block (s := S131072x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S131072x128.size a
  hwx1_4 : ∀ i : grid1.Coords, EltTy.bits .f32 = 32 ∨ (Rect.block (s := S131072x128) S4096x128.size (cc1_transform_4 i) (hinb1_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def gather_S131072_S2097152x1_S2097152_n_0_n_n_0_1_1 : GatherDims S131072 S2097152x1 S2097152 where
  offsetDims := []
  collapsedSliceDims := [0]
  operandBatchingDims := []
  startIndicesBatchingDims := []
  startIndexMap := [0]
  indexVectorDim := 1
  sliceSizes := ![1]
  wf := gather_S131072_S2097152x1_S2097152_n_0_n_n_0_1_1_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69_0) S4096x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69_1) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S131072x128 : Shape := ⟨2, ![131072, 128]⟩
abbrev S2x2097152 : Shape := ⟨2, ![2, 2097152]⟩
abbrev S1x512 : Shape := ⟨2, ![1, 512]⟩
abbrev S128x128 : Shape := ⟨2, ![128, 128]⟩
abbrev S128 : Shape := ⟨1, ![128]⟩
abbrev S128x512 : Shape := ⟨2, ![128, 512]⟩
abbrev S1x2097152 : Shape := ⟨2, ![1, 2097152]⟩
abbrev S2097152 : Shape := ⟨1, ![2097152]⟩
abbrev S_ : Shape := ⟨0, ![]⟩
abbrev S131072 : Shape := ⟨1, ![131072]⟩
abbrev S2097152x1 : Shape := ⟨2, ![2097152, 1]⟩
abbrev S2097152x128 : Shape := ⟨2, ![2097152, 128]⟩
abbrev S1x128 : Shape := ⟨2, ![1, 128]⟩
abbrev S512x128 : Shape := ⟨2, ![512, 128]⟩

abbrev nBuf : Space → Nat
  | .hbm => 122
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x2097152, .i32⟩
  | .hbm, ⟨2, _⟩ => ⟨S1x512, .f32⟩
  | .hbm, ⟨3, _⟩ => ⟨S128x128, .f32⟩
  | .hbm, ⟨4, _⟩ => ⟨S128, .f32⟩
  | .hbm, ⟨5, _⟩ => ⟨S128x512, .f32⟩
  | .hbm, ⟨6, _⟩ => ⟨S128, .f32⟩
  | .hbm, ⟨7, _⟩ => ⟨S1x2097152, .i32⟩
  | .hbm, ⟨8, _⟩ => ⟨S2097152, .i32⟩
  | .hbm, ⟨9, _⟩ => ⟨S1x2097152, .i32⟩
  | .hbm, ⟨10, _⟩ => ⟨S2097152, .i32⟩
  | .hbm, ⟨11, _⟩ => ⟨S128x128, .f32⟩
  | .hbm, ⟨12, _⟩ => ⟨S131072x128, .f32⟩
  | .hbm, ⟨13, _⟩ => ⟨S_, .f32⟩
  | .hbm, ⟨14, _⟩ => ⟨S2097152, .f32⟩
  | .hbm, ⟨15, _⟩ => ⟨S_, .f32⟩
  | .hbm, ⟨16, _⟩ => ⟨S131072, .f32⟩
  | .hbm, ⟨17, _⟩ => ⟨S2097152x1, .i32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .i1⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S_, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S2097152x1, .i32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .i1⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S_, .f32⟩
  | .hbm, ⟨40, _⟩ => ⟨S_, .f32⟩
  | .hbm, ⟨41, _⟩ => ⟨S131072, .f32⟩
  | .hbm, ⟨42, _⟩ => ⟨S131072, .f32⟩
  | .hbm, ⟨43, _⟩ => ⟨S_, .i32⟩
  | .hbm, ⟨44, _⟩ => ⟨S2097152, .i32⟩
  | .hbm, ⟨45, _⟩ => ⟨S2097152, .i1⟩
  | .hbm, ⟨46, _⟩ => ⟨S_, .i32⟩
  | .hbm, ⟨47, _⟩ => ⟨S2097152, .i32⟩
  | .hbm, ⟨48, _⟩ => ⟨S2097152, .i32⟩
  | .hbm, ⟨49, _⟩ => ⟨S2097152, .i32⟩
  | .hbm, ⟨50, _⟩ => ⟨S2097152x1, .i32⟩
  | .hbm, ⟨51, _⟩ => ⟨S2097152x128, .f32⟩
  | .hbm, ⟨52, _⟩ => ⟨S_, .i32⟩
  | .hbm, ⟨53, _⟩ => ⟨S2097152, .i32⟩
  | .hbm, ⟨54, _⟩ => ⟨S2097152, .i1⟩
  | .hbm, ⟨55, _⟩ => ⟨S_, .i32⟩
  | .hbm, ⟨56, _⟩ => ⟨S2097152, .i32⟩
  | .hbm, ⟨57, _⟩ => ⟨S2097152, .i32⟩
  | .hbm, ⟨58, _⟩ => ⟨S2097152, .i32⟩
  | .hbm, ⟨59, _⟩ => ⟨S2097152x1, .i32⟩
  | .hbm, ⟨60, _⟩ => ⟨S2097152, .f32⟩
  | .hbm, ⟨61, _⟩ => ⟨S2097152x1, .f32⟩
  | .hbm, ⟨62, _⟩ => ⟨S2097152x128, .f32⟩
  | .hbm, ⟨63, _⟩ => ⟨S2097152x128, .f32⟩
  | .hbm, ⟨64, _⟩ => ⟨S_, .f32⟩
  | .hbm, ⟨65, _⟩ => ⟨S131072x128, .f32⟩
  | .hbm, ⟨66, _⟩ => ⟨S2097152x1, .i32⟩
  | .hbm, ⟨67, _⟩ => ⟨S131072x128, .f32⟩
  | .hbm, ⟨68, _⟩ => ⟨S_, .i32⟩
  | .hbm, ⟨69, _⟩ => ⟨S2097152, .i32⟩
  | .hbm, ⟨70, _⟩ => ⟨S2097152, .i1⟩
  | .hbm, ⟨71, _⟩ => ⟨S_, .i32⟩
  | .hbm, ⟨72, _⟩ => ⟨S2097152, .i32⟩
  | .hbm, ⟨73, _⟩ => ⟨S2097152, .i32⟩
  | .hbm, ⟨74, _⟩ => ⟨S2097152, .i32⟩
  | .hbm, ⟨75, _⟩ => ⟨S2097152x1, .i32⟩
  | .hbm, ⟨76, _⟩ => ⟨S2097152x128, .f32⟩
  | .hbm, ⟨77, _⟩ => ⟨S_, .i32⟩
  | .hbm, ⟨78, _⟩ => ⟨S2097152, .i32⟩
  | .hbm, ⟨79, _⟩ => ⟨S2097152, .i1⟩
  | .hbm, ⟨80, _⟩ => ⟨S_, .i32⟩
  | .hbm, ⟨81, _⟩ => ⟨S2097152, .i32⟩
  | .hbm, ⟨82, _⟩ => ⟨S2097152, .i32⟩
  | .hbm, ⟨83, _⟩ => ⟨S2097152, .i32⟩
  | .hbm, ⟨84, _⟩ => ⟨S2097152x1, .i32⟩
  | .hbm, ⟨85, _⟩ => ⟨S2097152, .f32⟩
  | .hbm, ⟨86, _⟩ => ⟨S2097152x1, .f32⟩
  | .hbm, ⟨87, _⟩ => ⟨S2097152x128, .f32⟩
  | .hbm, ⟨88, _⟩ => ⟨S2097152x128, .f32⟩
  | .hbm, ⟨89, _⟩ => ⟨S_, .f32⟩
  | .hbm, ⟨90, _⟩ => ⟨S131072x128, .f32⟩
  | .hbm, ⟨91, _⟩ => ⟨S2097152x1, .i32⟩
  | .hbm, ⟨92, _⟩ => ⟨S131072x128, .f32⟩
  | .hbm, ⟨93, _⟩ => ⟨S1x128, .f32⟩
  | .hbm, ⟨94, _⟩ => ⟨S131072x128, .f32⟩
  | .hbm, ⟨95, _⟩ => ⟨S131072x128, .f32⟩
  | .hbm, ⟨96, _⟩ => ⟨S1x512, .f32⟩
  | .hbm, ⟨97, _⟩ => ⟨S1x512, .f32⟩
  | .hbm, ⟨98, _⟩ => ⟨S_, .f32⟩
  | .hbm, ⟨99, _⟩ => ⟨S1x512, .f32⟩
  | .hbm, ⟨100, _⟩ => ⟨S1x512, .f32⟩
  | .hbm, ⟨101, _⟩ => ⟨S_, .f32⟩
  | .hbm, ⟨102, _⟩ => ⟨S1x512, .f32⟩
  | .hbm, ⟨103, _⟩ => ⟨S1x512, .f32⟩
  | .hbm, ⟨104, _⟩ => ⟨S1x512, .f32⟩
  | .hbm, ⟨105, _⟩ => ⟨S512x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S131072x128, .f32⟩
  | .hbm, ⟨110, _⟩ => ⟨S131072x128, .f32⟩
  | .hbm, ⟨111, _⟩ => ⟨S131072x128, .f32⟩
  | .hbm, ⟨112, _⟩ => ⟨S131072x128, .f32⟩
  | .hbm, ⟨113, _⟩ => ⟨S_, .f32⟩
  | .hbm, ⟨114, _⟩ => ⟨S131072x128, .f32⟩
  | .hbm, ⟨115, _⟩ => ⟨S131072x128, .f32⟩
  | .hbm, ⟨116, _⟩ => ⟨S_, .f32⟩
  | .hbm, ⟨117, _⟩ => ⟨S131072x128, .f32⟩
  | .hbm, ⟨118, _⟩ => ⟨S131072x128, .f32⟩
  | .hbm, ⟨119, _⟩ => ⟨S131072x128, .f32⟩
  | .hbm, ⟨120, _⟩ => ⟨S_, .f32⟩
  | .hbm, ⟨121, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_9 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_c_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v73 : Ref sig .tc := ⟨.hbm, 119, rfl⟩
abbrev main_cst_17 : Ref sig .tc := ⟨.hbm, 120, rfl⟩
abbrev main_v74 : Ref sig .tc := ⟨.hbm, 121, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  transposes_S128x128_S128x128_1_0 : S128x128.Transposes [1, 0] S128x128
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S2097152x1_S2097152x128_0_1 : S2097152x1.BroadcastsInDim S2097152x128 (![0, 1] : Fin 2 → Fin S2097152x128.rank)
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S1x512 : S_.BroadcastsInDim S1x512 (![] : Fin 0 → Fin S1x512.rank)
  transposes_S128x512_S512x128_1_0 : S128x512.Transposes [1, 0] S512x128
  dot_S131072x128_S128x128_S131072x128_1_0_0_1_n_n_wf : DotDims.WF S131072x128 S128x128 S131072x128 [1] [0] [0] [1] [] []
  scatter_S131072_S2097152x1_S2097152_n_0_0_1_wf : ScatterDims.WF S131072 S2097152x1 S2097152 [] [0] [0] 1
  gather_S131072x128_S2097152x1_S2097152x128_1_0_n_n_0_1_1128_wf : GatherDims.WF S131072x128 S2097152x1 S2097152x128 [1] [0] [] [0] [] 1 ![1, 128]
  gather_S131072_S2097152x1_S2097152_n_0_n_n_0_1_1_wf : GatherDims.WF S131072 S2097152x1 S2097152 [] [0] [] [0] [] 1 ![1]
  scatter_S131072x128_S2097152x1_S2097152x128_1_0_0_1_wf : ScatterDims.WF S131072x128 S2097152x1 S2097152x128 [1] [0] [0] 1
  dot_S1x512_S512x128_S1x128_1_0_0_1_n_n_wf : DotDims.WF S1x512 S512x128 S1x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def gather_S131072_S2097152x1_S2097152_n_0_n_n_0_1_1 : GatherDims S131072 S2097152x1 S2097152 where
  offsetDims := []
  collapsedSliceDims := [0]
  operandBatchingDims := []
  startIndicesBatchingDims := []
  startIndexMap := [0]
  indexVectorDim := 1
  sliceSizes := ![1]
  wf := gather_S131072_S2097152x1_S2097152_n_0_n_n_0_1_1_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

class Facts : Prop extends Facts₀ where

variable [Facts]
-- ==== Proof.NamedRun.lean ====
/-
  The idealized kernel's run with its two result buffers named.

  The program is two pipelined regions among stretches of host operations. The generated frame gives, at every
  boundary between two segments, the contents of every buffer as a fold from the launch memory; the last boundary's
  contents are `Gen.W10`. The launch theorem for a list of segments ends in "every unscoped buffer of every core
  holds the last boundary's contents", from which ANY post about the final memory that those contents imply follows
  (`run_reading`). Read at the two result buffers and at the seven arguments this is `run_outputs`: the results end at
  `Gen.W10` of their references, the arguments end as launched.
-/
import proofs.«141972_j7919919693901_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault in a memory where every unscoped buffer of every
    core holds the last boundary's contents; so it terminates in any `Q` those contents imply. -/
theorem run_reading {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the results named: the two result buffers end at the last boundary's contents of their references,
    the seven arguments end as launched. -/
theorem run_outputs : θ_run defs (onTc (τ := τ) (main (F := F))) ⟨m, fun _ => 0, ρ⟩ (fun r => ∀ c : Dev nD,
      r.2.mem ((c.tc : Thread nD τ).loc main_v69_0) = W10 m ρ c (Proc.devRef .tc main_v69_0)
      ∧ r.2.mem ((c.tc : Thread nD τ).loc main_v69_1) = W10 m ρ c (Proc.devRef .tc main_v69_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_reading m ρ (fun s h c =>
    ⟨h c _ (mem_uc main_v69_0 (by decide)),
     h c _ (mem_uc main_v69_1 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩)

end Cert.KernelIdeal.Named

end
-- ==== Proof.Incidence.lean ====
/-
  The two-pass aggregation over the incidence list, which both programs apply to the projected rows before the final
  gate, as ONE function of the projected rows and the two rows of index words.

  The incidence list has 2097152 entries; entry e pairs a node word with a hyperedge word. For a row of words,
  `count` is how many entries name each of the 131072 slots and `invCount` its reciprocal where positive (zero
  where no entry names the slot). One `pass` sends, for every entry, the row its source word names — scaled by the
  weight its target word names — into the row its target word names, summing what lands on the same row. The
  aggregation is a pass from nodes to hyperedges weighted by the hyperedges' reciprocal counts, then a pass back from
  hyperedges to nodes weighted by the nodes' reciprocal counts: D⁻¹ H B⁻¹ Hᵀ applied to the projected rows.
  A word read as a subscript counts from the end when negative (`wrapped`); a word used as a scatter target is taken
  as it stands. Nothing here is ever evaluated: the two programs are compared with this function kept closed.
-/
import proofs.«141972_j7919919693901_1_alg».proof.Proof.RefRead

noncomputable section

namespace Cert.Incidence

open Idealize.ShloMosaic Cert.ReferenceIdeal Cert.ReferenceIdeal.Gen

/-- An array of 131072 rows of 128 extended reals. -/
abbrev Rows := FVec Ideal S131072x128 .f32
/-- One row of the incidence list: 2097152 index words. -/
abbrev Words := IVec S2097152 32
/-- One extended real per slot. -/
abbrev PerSlot := FVec Ideal S131072 .f32

/-- A row of words as a column. -/
def column (w : Words) : IVec S2097152x1 32 :=
  broadcastInDim S2097152x1 ![0] bcast_S2097152_S2097152x1_0 w

/-- Words read the way a subscript reads them: a negative word counts from the end of the 131072 slots. -/
def wrapped (w : Words) : Words :=
  select (cmpi .slt w (broadcastInDim S2097152 ![] bcast_S_S2097152 (constantI S_ 32 0#32)))
    (addi w (broadcastInDim S2097152 ![] bcast_S_S2097152 (constantI S_ 32 131072#32))) w

/-- How many entries of the list name each slot: ones summed into zeros at the words. -/
def count (w : Words) : PerSlot :=
  Host.scatterAdd scatter_S131072_S2097152x1_S2097152_n_0_0_1
    (broadcastInDim S131072 ![] bcast_S_S131072 (constant (F := Ideal) S_ .f32 0x00000000#32)) (column w)
    (broadcastInDim S2097152 ![] bcast_S_S2097152 (constant (F := Ideal) S_ .f32 0x3F800000#32))

/-- The reciprocal of the count where the count is positive, zero elsewhere. -/
def invCount (w : Words) : PerSlot :=
  select (cmpf (F := Ideal) .ogt (count w) (broadcastInDim S131072 ![] bcast_S_S131072 (constant (F := Ideal) S_ .f32 0x00000000#32)))
    (Host.divf (F := Ideal) (broadcastInDim S131072 ![] bcast_S_S131072 (constant (F := Ideal) S_ .f32 0x3F800000#32)) (count w))
    (broadcastInDim S131072 ![] bcast_S_S131072 (id (constant (F := Ideal) S_ .f32 0x00000000#32)))

/-- One pass over the list: every entry carries the row its source word names, scaled by the weight its target word
    names, into the row its target word names; what lands on one row is summed, and a row no entry names is zero. -/
def pass (rows : Rows) (src dst : Words) (weight : PerSlot) : Rows :=
  Host.scatterAdd scatter_S131072x128_S2097152x1_S2097152x128_1_0_0_1
    (broadcastInDim S131072x128 ![] bcast_S_S131072x128 (constant (F := Ideal) S_ .f32 0x00000000#32)) (column dst)
    (mulf (Host.gather gather_S131072x128_S2097152x1_S2097152x128_1_0_n_n_0_1_1128 rows (column (wrapped src)))
      (broadcastInDim S2097152x128 ![0, 1] bcast_S2097152x1_S2097152x128_0_1
        (broadcastInDim S2097152x1 ![0] bcast_S2097152_S2097152x1_0
          (Host.gather gather_S131072_S2097152x1_S2097152_n_0_n_n_0_1_1 weight (column (wrapped dst))))))

/-- Nodes to hyperedges weighted by the hyperedges' reciprocal sizes, then hyperedges back to nodes weighted by the
    nodes' reciprocal degrees. -/
def aggregate (rows : Rows) (node edge : Words) : Rows :=
  pass (pass rows node edge (invCount edge)) edge node (invCount node)

/-- The reference's aggregated array is this function of its projected rows and of the two rows of its index input. -/
theorem reference_aggregate (x0 : FVec Ideal S131072x128 .f32) (x1 : IVec S2x2097152 32) (x3 : FVec Ideal S128x128 .f32) :
    ReadP.val_main_v62 (F := Ideal) x0 x1 x3
      = aggregate (ReadP.val_main_v5 (F := Ideal) x0 x3) (ReadP.val_main_v1 (F := Ideal) x1) (ReadP.val_main_v3 (F := Ideal) x1) := rfl

end Cert.Incidence

end
-- ==== Proof.Between.lean ====
/-
  The host operations between the two regions, read back at the three buffers the finalize region takes.

  Between the projection region and the finalize region the program runs seven stretches of host operations (94 in
  all). From ANY buffer contents `V` at the projection region's exit, after those stretches:
  • the aggregated array is the two-pass incidence aggregation of `V`'s projected rows and `V`'s two rows of index
    words: stretch by stretch, the node counts and their reciprocals, the hyperedge counts and their reciprocals, then
    the two passes — the same operations, in the same order, that define `Incidence.aggregate`;
  • the time row is the reference's own time-embedding stage of `V`'s three arguments: the gated time embedding times
    the transposed weight, plus the bias row;
  • the bias row is `V`'s bias vector with a leading unit axis added.
  Each is a walk back through the fold of the operations' results; no arithmetic is opened. The walk is made one
  stretch at a time, at a parameter `X` for the contents the stretch starts from, and then composed.
-/
import proofs.«141972_j7919919693901_1_alg».proof.Proof.Gen.KernelIdeal.Frame
import proofs.«141972_j7919919693901_1_alg».proof.Proof.Incidence
import Idealize.ShloMosaic.Lib.StableHlo.Run

set_option maxRecDepth 16384

noncomputable section

namespace Cert.KernelIdeal.Between

open Idealize.ShloMosaic Idealize.ShloMosaic.TcCoe Idealize.SL.Sem
open Cert.KernelIdeal Cert.KernelIdeal.Gen

/-- The buffer contents after the seven stretches of host operations that separate the two regions, from contents `V`. -/
abbrev between (V : Valuation τ sig (Elt Ideal)) : Valuation τ sig (Elt Ideal) :=
  StableHlo.after hostOps1_6 (StableHlo.after hostOps1_5 (StableHlo.after hostOps1_4 (StableHlo.after hostOps1_3
    (StableHlo.after hostOps1_2 (StableHlo.after hostOps1_1 (StableHlo.after hostOps1 V))))))

/-! ## The first stretch: the node counts -/

/-- Where the node count is positive. -/
theorem nodes_positive (X : Valuation τ sig (Elt Ideal)) :
    StableHlo.after hostOps1 X (Proc.devRef .tc main_v11)
      = cmpf (F := Ideal) .ogt (Incidence.count (X (Proc.devRef .tc main_v1))) (broadcastInDim Cert.ReferenceIdeal.S131072 ![] Cert.ReferenceIdeal.Gen.bcast_S_S131072 (constant (F := Ideal) Cert.ReferenceIdeal.S_ .f32 0x00000000#32)) := by
  generalize hR : cmpf (F := Ideal) .ogt (Incidence.count (X (Proc.devRef .tc main_v1))) (broadcastInDim Cert.ReferenceIdeal.S131072 ![] Cert.ReferenceIdeal.Gen.bcast_S_S131072 (constant (F := Ideal) Cert.ReferenceIdeal.S_ .f32 0x00000000#32)) = R
  dsimp only [hostOps1]; after_results_simp
  rw [← hR]; rfl

/-- The reciprocal of the node count. -/
theorem nodes_reciprocal (X : Valuation τ sig (Elt Ideal)) :
    StableHlo.after hostOps1 X (Proc.devRef .tc main_v13)
      = Host.divf (F := Ideal) (broadcastInDim Cert.ReferenceIdeal.S131072 ![] Cert.ReferenceIdeal.Gen.bcast_S_S131072 (constant (F := Ideal) Cert.ReferenceIdeal.S_ .f32 0x3F800000#32)) (Incidence.count (X (Proc.devRef .tc main_v1))) := by
  generalize hR : Host.divf (F := Ideal) (broadcastInDim Cert.ReferenceIdeal.S131072 ![] Cert.ReferenceIdeal.Gen.bcast_S_S131072 (constant (F := Ideal) Cert.ReferenceIdeal.S_ .f32 0x3F800000#32)) (Incidence.count (X (Proc.devRef .tc main_v1))) = R
  dsimp only [hostOps1]; after_results_simp
  rw [← hR]; rfl

/-- The value where the count is not positive: zero. -/
theorem nodes_else (X : Valuation τ sig (Elt Ideal)) :
    StableHlo.after hostOps1 X (Proc.devRef .tc main_cst_3)
      = constant (F := Ideal) Cert.ReferenceIdeal.S_ .f32 0x00000000#32 := by
  generalize hR : constant (F := Ideal) Cert.ReferenceIdeal.S_ .f32 0x00000000#32 = R
  dsimp only [hostOps1]; after_results_simp
  rw [← hR]

/-- One per incidence entry. -/
theorem entry_ones (X : Valuation τ sig (Elt Ideal)) :
    StableHlo.after hostOps1 X (Proc.devRef .tc main_v6)
      = (broadcastInDim Cert.ReferenceIdeal.S2097152 ![] Cert.ReferenceIdeal.Gen.bcast_S_S2097152 (constant (F := Ideal) Cert.ReferenceIdeal.S_ .f32 0x3F800000#32)) := by
  generalize hR : (broadcastInDim Cert.ReferenceIdeal.S2097152 ![] Cert.ReferenceIdeal.Gen.bcast_S_S2097152 (constant (F := Ideal) Cert.ReferenceIdeal.S_ .f32 0x3F800000#32)) = R
  dsimp only [hostOps1]; after_results_simp
  rw [← hR]

theorem keep_s1_v1 (X : Valuation τ sig (Elt Ideal)) :
    StableHlo.after hostOps1 X (Proc.devRef .tc main_v1) = X (Proc.devRef .tc main_v1) := by
  dsimp only [hostOps1]; after_results_simp
theorem keep_s1_v3 (X : Valuation τ sig (Elt Ideal)) :
    StableHlo.after hostOps1 X (Proc.devRef .tc main_v3) = X (Proc.devRef .tc main_v3) := by
  dsimp only [hostOps1]; after_results_simp
theorem keep_s1_v5 (X : Valuation τ sig (Elt Ideal)) :
    StableHlo.after hostOps1 X (Proc.devRef .tc main_v5) = X (Proc.devRef .tc main_v5) := by
  dsimp only [hostOps1]; after_results_simp

/-! ## The second stretch: the reciprocal node counts, zero where no entry names the node -/

/-- The choice between the reciprocal and zero. -/
theorem nodes_invCount (X : Valuation τ sig (Elt Ideal)) :
    StableHlo.after hostOps1_1 X (Proc.devRef .tc main_v14)
      = select (X (Proc.devRef .tc main_v11)) (X (Proc.devRef .tc main_v13)) (broadcastInDim Cert.ReferenceIdeal.S131072 ![] Cert.ReferenceIdeal.Gen.bcast_S_S131072 (id (X (Proc.devRef .tc main_cst_3)))) := by
  generalize hR : select (X (Proc.devRef .tc main_v11)) (X (Proc.devRef .tc main_v13)) (broadcastInDim Cert.ReferenceIdeal.S131072 ![] Cert.ReferenceIdeal.Gen.bcast_S_S131072 (id (X (Proc.devRef .tc main_cst_3)))) = R
  dsimp only [hostOps1_1]; after_results_simp
  rw [← hR]; rfl

theorem keep_s1_1_v1 (X : Valuation τ sig (Elt Ideal)) :
    StableHlo.after hostOps1_1 X (Proc.devRef .tc main_v1) = X (Proc.devRef .tc main_v1) := by
  dsimp only [hostOps1_1]; after_results_simp
theorem keep_s1_1_v3 (X : Valuation τ sig (Elt Ideal)) :
    StableHlo.after hostOps1_1 X (Proc.devRef .tc main_v3) = X (Proc.devRef .tc main_v3) := by
  dsimp only [hostOps1_1]; after_results_simp
theorem keep_s1_1_v5 (X : Valuation τ sig (Elt Ideal)) :
    StableHlo.after hostOps1_1 X (Proc.devRef .tc main_v5) = X (Proc.devRef .tc main_v5) := by
  dsimp only [hostOps1_1]; after_results_simp
theorem keep_s1_1_v6 (X : Valuation τ sig (Elt Ideal)) :
    StableHlo.after hostOps1_1 X (Proc.devRef .tc main_v6) = X (Proc.devRef .tc main_v6) := by
  dsimp only [hostOps1_1]; after_results_simp

/-! ## The third and fourth stretches: the same for the hyperedges -/

/-- Where the hyperedge count is positive. -/
theorem edges_positive (X : Valuation τ sig (Elt Ideal)) :
    StableHlo.after hostOps1_2 X (Proc.devRef .tc main_v19)
      = cmpf (F := Ideal) .ogt (Host.scatterAdd Cert.ReferenceIdeal.scatter_S131072_S2097152x1_S2097152_n_0_0_1 (broadcastInDim Cert.ReferenceIdeal.S131072 ![] Cert.ReferenceIdeal.Gen.bcast_S_S131072 (constant (F := Ideal) Cert.ReferenceIdeal.S_ .f32 0x00000000#32)) (Incidence.column (X (Proc.devRef .tc main_v3))) (X (Proc.devRef .tc main_v6))) (broadcastInDim Cert.ReferenceIdeal.S131072 ![] Cert.ReferenceIdeal.Gen.bcast_S_S131072 (constant (F := Ideal) Cert.ReferenceIdeal.S_ .f32 0x00000000#32)) := by
  generalize hR : cmpf (F := Ideal) .ogt (Host.scatterAdd Cert.ReferenceIdeal.scatter_S131072_S2097152x1_S2097152_n_0_0_1 (broadcastInDim Cert.ReferenceIdeal.S131072 ![] Cert.ReferenceIdeal.Gen.bcast_S_S131072 (constant (F := Ideal) Cert.ReferenceIdeal.S_ .f32 0x00000000#32)) (Incidence.column (X (Proc.devRef .tc main_v3))) (X (Proc.devRef .tc main_v6))) (broadcastInDim Cert.ReferenceIdeal.S131072 ![] Cert.ReferenceIdeal.Gen.bcast_S_S131072 (constant (F := Ideal) Cert.ReferenceIdeal.S_ .f32 0x00000000#32)) = R
  dsimp only [hostOps1_2]; after_results_simp
  rw [← hR]; rfl

/-- The reciprocal of the hyperedge count. -/
theorem edges_reciprocal (X : Valuation τ sig (Elt Ideal)) :
    StableHlo.after hostOps1_2 X (Proc.devRef .tc main_v21)
      = Host.divf (F := Ideal) (broadcastInDim Cert.ReferenceIdeal.S131072 ![] Cert.ReferenceIdeal.Gen.bcast_S_S131072 (constant (F := Ideal) Cert.ReferenceIdeal.S_ .f32 0x3F800000#32)) (Host.scatterAdd Cert.ReferenceIdeal.scatter_S131072_S2097152x1_S2097152_n_0_0_1 (broadcastInDim Cert.ReferenceIdeal.S131072 ![] Cert.ReferenceIdeal.Gen.bcast_S_S131072 (constant (F := Ideal) Cert.ReferenceIdeal.S_ .f32 0x00000000#32)) (Incidence.column (X (Proc.devRef .tc main_v3))) (X (Proc.devRef .tc main_v6))) := by
  generalize hR : Host.divf (F := Ideal) (broadcastInDim Cert.ReferenceIdeal.S131072 ![] Cert.ReferenceIdeal.Gen.bcast_S_S131072 (constant (F := Ideal) Cert.ReferenceIdeal.S_ .f32 0x3F800000#32)) (Host.scatterAdd Cert.ReferenceIdeal.scatter_S131072_S2097152x1_S2097152_n_0_0_1 (broadcastInDim Cert.ReferenceIdeal.S131072 ![] Cert.ReferenceIdeal.Gen.bcast_S_S131072 (constant (F := Ideal) Cert.ReferenceIdeal.S_ .f32 0x00000000#32)) (Incidence.column (X (Proc.devRef .tc main_v3))) (X (Proc.devRef .tc main_v6))) = R
  dsimp only [hostOps1_2]; after_results_simp
  rw [← hR]; rfl

/-- The value where the count is not positive: zero. -/
theorem edges_else (X : Valuation τ sig (Elt Ideal)) :
    StableHlo.after hostOps1_2 X (Proc.devRef .tc main_cst_7)
      = constant (F := Ideal) Cert.ReferenceIdeal.S_ .f32 0x00000000#32 := by
  generalize hR : constant (F := Ideal) Cert.ReferenceIdeal.S_ .f32 0x00000000#32 = R
  dsimp only [hostOps1_2]; after_results_simp
  rw [← hR]

theorem keep_s1_2_v1 (X : Valuation τ sig (Elt Ideal)) :
    StableHlo.after hostOps1_2 X (Proc.devRef .tc main_v1) = X (Proc.devRef .tc main_v1) := by
  dsimp only [hostOps1_2]; after_results_simp
theorem keep_s1_2_v3 (X : Valuation τ sig (Elt Ideal)) :
    StableHlo.after hostOps1_2 X (Proc.devRef .tc main_v3) = X (Proc.devRef .tc main_v3) := by
  dsimp only [hostOps1_2]; after_results_simp
theorem keep_s1_2_v5 (X : Valuation τ sig (Elt Ideal)) :
    StableHlo.after hostOps1_2 X (Proc.devRef .tc main_v5) = X (Proc.devRef .tc main_v5) := by
  dsimp only [hostOps1_2]; after_results_simp
theorem keep_s1_2_v14 (X : Valuation τ sig (Elt Ideal)) :
    StableHlo.after hostOps1_2 X (Proc.devRef .tc main_v14) = X (Proc.devRef .tc main_v14) := by
  dsimp only [hostOps1_2]; after_results_simp

/-- The choice between the reciprocal and zero. -/
theorem edges_invCount (X : Valuation τ sig (Elt Ideal)) :
    StableHlo.after hostOps1_3 X (Proc.devRef .tc main_v22)
      = select (X (Proc.devRef .tc main_v19)) (X (Proc.devRef .tc main_v21)) (broadcastInDim Cert.ReferenceIdeal.S131072 ![] Cert.ReferenceIdeal.Gen.bcast_S_S131072 (id (X (Proc.devRef .tc main_cst_7)))) := by
  generalize hR : select (X (Proc.devRef .tc main_v19)) (X (Proc.devRef .tc main_v21)) (broadcastInDim Cert.ReferenceIdeal.S131072 ![] Cert.ReferenceIdeal.Gen.bcast_S_S131072 (id (X (Proc.devRef .tc main_cst_7)))) = R
  dsimp only [hostOps1_3]; after_results_simp
  rw [← hR]; rfl

theorem keep_s1_3_v1 (X : Valuation τ sig (Elt Ideal)) :
    StableHlo.after hostOps1_3 X (Proc.devRef .tc main_v1) = X (Proc.devRef .tc main_v1) := by
  dsimp only [hostOps1_3]; after_results_simp
theorem keep_s1_3_v3 (X : Valuation τ sig (Elt Ideal)) :
    StableHlo.after hostOps1_3 X (Proc.devRef .tc main_v3) = X (Proc.devRef .tc main_v3) := by
  dsimp only [hostOps1_3]; after_results_simp
theorem keep_s1_3_v5 (X : Valuation τ sig (Elt Ideal)) :
    StableHlo.after hostOps1_3 X (Proc.devRef .tc main_v5) = X (Proc.devRef .tc main_v5) := by
  dsimp only [hostOps1_3]; after_results_simp
theorem keep_s1_3_v14 (X : Valuation τ sig (Elt Ideal)) :
    StableHlo.after hostOps1_3 X (Proc.devRef .tc main_v14) = X (Proc.devRef .tc main_v14) := by
  dsimp only [hostOps1_3]; after_results_simp

/-! ## The fifth stretch: the two passes -/

/-- Nodes to hyperedges weighted by the hyperedges' reciprocal counts, then back weighted by the nodes'. -/
theorem two_passes (X : Valuation τ sig (Elt Ideal)) :
    StableHlo.after hostOps1_4 X (Proc.devRef .tc main_v62)
      = Incidence.pass (Incidence.pass (X (Proc.devRef .tc main_v5)) (X (Proc.devRef .tc main_v1)) (X (Proc.devRef .tc main_v3)) (X (Proc.devRef .tc main_v22))) (X (Proc.devRef .tc main_v3)) (X (Proc.devRef .tc main_v1)) (X (Proc.devRef .tc main_v14)) := by
  generalize hR : Incidence.pass (Incidence.pass (X (Proc.devRef .tc main_v5)) (X (Proc.devRef .tc main_v1)) (X (Proc.devRef .tc main_v3)) (X (Proc.devRef .tc main_v22))) (X (Proc.devRef .tc main_v3)) (X (Proc.devRef .tc main_v1)) (X (Proc.devRef .tc main_v14)) = R
  dsimp only [hostOps1_4]; after_results_simp
  rw [← hR]; rfl

/-! ## The last two stretches leave the aggregated array alone -/

theorem keep_s1_5_v62 (X : Valuation τ sig (Elt Ideal)) :
    StableHlo.after hostOps1_5 X (Proc.devRef .tc main_v62) = X (Proc.devRef .tc main_v62) := by
  dsimp only [hostOps1_5]; after_results_simp
theorem keep_s1_6_v62 (X : Valuation τ sig (Elt Ideal)) :
    StableHlo.after hostOps1_6 X (Proc.devRef .tc main_v62) = X (Proc.devRef .tc main_v62) := by
  dsimp only [hostOps1_6]; after_results_simp

/-! ## Composed -/

/-- The aggregated array: the two-pass aggregation of the projected rows over the incidence list. -/
theorem between_aggregate (V : Valuation τ sig (Elt Ideal)) :
    between V (Proc.devRef .tc main_v62)
      = Incidence.aggregate (V (Proc.devRef .tc main_v5)) (V (Proc.devRef .tc main_v1)) (V (Proc.devRef .tc main_v3)) := by
  show StableHlo.after hostOps1_6 (StableHlo.after hostOps1_5 (StableHlo.after hostOps1_4 (StableHlo.after hostOps1_3
    (StableHlo.after hostOps1_2 (StableHlo.after hostOps1_1 (StableHlo.after hostOps1 V)))))) (Proc.devRef .tc main_v62) = _
  rw [keep_s1_6_v62, keep_s1_5_v62, two_passes]
  rw [edges_invCount, keep_s1_3_v1, keep_s1_3_v3, keep_s1_3_v5, keep_s1_3_v14]
  rw [edges_positive, edges_reciprocal, edges_else, keep_s1_2_v1, keep_s1_2_v3, keep_s1_2_v5, keep_s1_2_v14]
  rw [nodes_invCount, keep_s1_1_v1, keep_s1_1_v3, keep_s1_1_v5, keep_s1_1_v6]
  rw [nodes_positive, nodes_reciprocal, nodes_else, entry_ones, keep_s1_v1, keep_s1_v3, keep_s1_v5]
  rfl

set_option maxHeartbeats 4000000 in
/-- The time row: the reference's time-embedding stage of the three arguments it reads. -/
theorem between_timeRow (V : Valuation τ sig (Elt Ideal)) :
    between V (Proc.devRef .tc main_v67)
      = Cert.ReferenceIdeal.ReadP.val_main_v70 (F := Ideal) (V (Proc.devRef .tc main_arg2)) (V (Proc.devRef .tc main_arg5))
          (V (Proc.devRef .tc main_arg6)) := by
  dsimp only [between, hostOps1, hostOps1_1, hostOps1_2, hostOps1_3, hostOps1_4, hostOps1_5, hostOps1_6]
  after_results_simp
  rfl

set_option maxHeartbeats 4000000 in
/-- The bias row: the bias vector with a leading unit axis. -/
theorem between_biasRow (V : Valuation τ sig (Elt Ideal)) :
    between V (Proc.devRef .tc main_v68)
      = shapeCast S1x128 (V (Proc.devRef .tc main_arg4)) shapeCasts_S128_S1x128 := by
  dsimp only [between, hostOps1, hostOps1_1, hostOps1_2, hostOps1_3, hostOps1_4, hostOps1_5, hostOps1_6]
  after_results_simp
  rfl

end Cert.KernelIdeal.Between

end
-- ==== Proof.Bodies.lean ====
/-
  The two kernel bodies' arithmetic on the extended reals, one element at a time.

  The projection body stores the product of its row block (4096 × 128) with the whole transposed weight (128 × 128)
  into a zero accumulator; a change of float format is the identity on the extended reals, so entry (p, q) of what it
  stores is the sum over k of (row block)(p, k) · (weight)(k, q).
  The finalize body adds to its row block the two one-row operands, each broadcast down the rows, and multiplies the
  sum v by logistic v; its second store is the zero word everywhere.
-/
import proofs.«141972_j7919919693901_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Idealize.ShloMosaic Idealize.ShloMosaic.ValueIdx Cert.KernelIdeal Cert.KernelIdeal.Gen

/-- The projection's dimension numbers: rows of the left operand against columns of the right, one contracted axis of extent 128. -/
abbrev pdims : DotDims S4096x128 S128x128 S4096x128 := dot_S4096x128_S128x128_S4096x128_1_0_0_1_n_n

/-- The left operand is read at the output's row. -/
theorem lhs_row (i : S4096x128.Idx) (κ : pdims.contr.Idx) : (pdims.lhsIdx i κ 0).val = (i 0).val := by
  unfold DotDims.lhsIdx
  rw [dif_neg (show ¬(0 : Fin S4096x128.rank) ∈ pdims.lhsBatch by decide), dif_pos (show (0 : Fin S4096x128.rank) ∈ pdims.lhsNonContracting by decide)]
  rfl
/-- … and at the contracted coordinate along its columns. -/
theorem lhs_col (i : S4096x128.Idx) (κ : pdims.contr.Idx) : (pdims.lhsIdx i κ 1).val = (κ ⟨0, by decide⟩).val :=
  pdims.lhsIdx_val_of_single rfl i κ
/-- The right operand is read at the contracted coordinate along its rows … -/
theorem rhs_row (i : S4096x128.Idx) (κ : pdims.contr.Idx) : (pdims.rhsIdx i κ 0).val = (κ ⟨0, by decide⟩).val :=
  pdims.rhsIdx_val_of_single rfl i κ
/-- … and at the output's column. -/
theorem rhs_col (i : S4096x128.Idx) (κ : pdims.contr.Idx) : (pdims.rhsIdx i κ 1).val = (i 1).val := by
  unfold DotDims.rhsIdx
  rw [dif_neg (show ¬(1 : Fin S128x128.rank) ∈ pdims.rhsBatch by decide), dif_pos (show (1 : Fin S128x128.rank) ∈ pdims.rhsNonContracting by decide)]
  rfl

/-- Entry (p, q) of what the projection body stores: the row p of its first block against the column q of its second. -/
theorem project_apply (x0 : FVec Ideal S4096x128 .f32) (x1 : FVec Ideal S128x128 .f32) (p : Fin 4096) (q : Fin 128) :
    k0_pay1 (F := Ideal) x0 x1 (ix2 p q) = ∑ k : Fin 128, x0 (ix2 p k) * x1 (ix2 k q) := by
  unfold k0_pay1
  refine (Ideal.matmul_constant_zero_apply pdims none _ _ (ix2 p q)).trans ?_
  rw [← Equiv.sum_comp (contrEquiv1 pdims 128 rfl rfl).symm]
  refine Finset.sum_congr rfl fun k _ => ?_
  have hk := contrEquiv1_symm_val pdims 128 rfl rfl k
  have el : pdims.lhsIdx (ix2 p q) ((contrEquiv1 pdims 128 rfl rfl).symm k) = ix2 p k := funext fun a => Fin.ext (by
    match a with
    | ⟨0, _⟩ => exact lhs_row _ _
    | ⟨1, _⟩ => exact (lhs_col _ _).trans hk)
  have er : pdims.rhsIdx (ix2 p q) ((contrEquiv1 pdims 128 rfl rfl).symm k) = ix2 k q := funext fun a => Fin.ext (by
    match a with
    | ⟨0, _⟩ => exact (rhs_row _ _).trans hk
    | ⟨1, _⟩ => exact rhs_col _ _)
  rw [el, er]
  show x0 (ix2 p k) * (shapeCast S128x128 x1 shapeCasts_S128x128_S128x128) (ix2 k q) = _
  rw [shapeCast_self]

/-- Entry (p, q) of what the finalize body stores first: v · logistic v for v the block's entry plus the two one-row
    operands' entries at column q. -/
theorem finalize_apply (x0 : FVec Ideal S4096x128 .f32) (b2 tp : FVec Ideal S1x128 .f32) (p : Fin 4096) (q : Fin 128) :
    k1_pay1 (F := Ideal) x0 b2 tp (ix2 p q)
      = (x0 (ix2 p q) + b2 (ix2 (0 : Fin 1) q) + tp (ix2 (0 : Fin 1) q))
          * Ideal.logistic (x0 (ix2 p q) + b2 (ix2 (0 : Fin 1) q) + tp (ix2 (0 : Fin 1) q)) := by
  unfold k1_pay1
  have hb := broadcastTo_1b_ab_apply (a := 4096) b2 broadcasts_S1x128_S4096x128 p q
  have ht := broadcastTo_1b_ab_apply (a := 4096) tp broadcasts_S1x128_S4096x128 p q
  simp only [shapeCast_self]
  show (x0 (ix2 p q) + broadcastTo S4096x128 b2 broadcasts_S1x128_S4096x128 (ix2 p q) + broadcastTo S4096x128 tp broadcasts_S1x128_S4096x128 (ix2 p q))
      * Ideal.logistic (x0 (ix2 p q) + broadcastTo S4096x128 b2 broadcasts_S1x128_S4096x128 (ix2 p q) + broadcastTo S4096x128 tp broadcasts_S1x128_S4096x128 (ix2 p q)) = _
  rw [hb, ht]

/-- What the finalize body stores second is the zero word everywhere. -/
theorem zeros_apply (j : S4096x128.Idx) : k1_pay2 (F := Ideal) j = Ideal.ofBits .f32 0x00000000#32 := rfl

end Cert.KernelIdeal.Bodies

end
-- ==== Proof.ProjectRegion.lean ====
/-
  The projection region: after it, its output array is rows times columns of its two input arrays.

  The region has 32 points; point t stages rows 4096·t … 4096·t + 4095 of the first input (all 128 columns), the whole
  128 × 128 second input, and writes back rows 4096·t … of the output. What point t writes back is therefore those rows
  of ONE whole-array function of the two inputs as the region finds them — entry (r, j) is the sum over k of
  first(r, k) · second(k, j) — and the 32 row blocks cover the output array, so the array ends holding that function.
  Stated at a parameter `V`, the buffer contents when the region is entered.
-/
import proofs.«141972_j7919919693901_1_alg».proof.Proof.Gen.KernelIdeal.Frame
import proofs.«141972_j7919919693901_1_alg».proof.Proof.Bodies
import Idealize.ShloMosaic.Lib.Pipeline.Value

set_option maxRecDepth 16384

noncomputable section

open scoped BigOperators

namespace Cert.KernelIdeal.Project

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Rows times columns: entry (r, j) is the sum over k of `A (r, k) · B (k, j)`. -/
def rowsByCols (A : S131072x128.Idx → EReal) (B : S128x128.Idx → EReal) : S131072x128.Idx → EReal := fun i =>
  ∑ k : Fin 128, A (ix2 (⟨(i 0).val, (i 0).isLt⟩ : Fin 131072) k) * B (ix2 k (⟨(i 1).val, (i 1).isLt⟩ : Fin 128))

theorem zero_offsets : (![0, 0] : Fin 2 → Nat) = fun _ => 0 := funext fun a => by fin_cases a <;> rfl

/-- The first input array as the region finds it, as a function on its indices. -/
abbrev inA (c : Dev nD) : S131072x128.Idx → EReal := V c main_arg0
/-- The second input array as the region finds it. -/
abbrev inB (c : Dev nD) : S128x128.Idx → EReal := V c main_v4

/-- The three index maps over the grid: the row-block index of the first input and of the output is the point, and
    every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of rows times columns of the two inputs as the region finds them. -/
theorem flushed_eq (c : Dev nD) (t : Fin cfg0.N) :
    (dat0 V c).flushed 2 t = ((cfg0.win 2).blk t).view.read (Elt Ideal) (rowsByCols (V c main_arg0) (V c main_v4)) := by
  show (cfg0.win 2).cut (grid0.coords t) ((dat0 V c).after 2 t) = _
  rw [after0_2]
  unfold out0_2
  rw [View.canon_unit_zero zero_offsets]
  simp only [View.ld_unit_zero (S := S4096x128) zero_offsets, View.ld_unit_zero (S := S128x128) zero_offsets]
  obtain ⟨e0, e1, e2, e3, e4, e5⟩ := index_facts t
  funext j
  obtain ⟨p, q, rfl⟩ : ∃ (p : Fin 4096) (q : Fin 128), j = ix2 p q := ⟨j 0, j 1, eq_ix2 j⟩
  refine (Bodies.project_apply (iblk0 V c 0 t) (iblk0 V c 1 t) p q).trans ?_
  have h0 : ∀ k : Fin 128, ((cfg0.win 0).blk t).view.emb (ix2 p k)
      = ix2 (⟨((((cfg0.win 2).blk t).view.emb (ix2 p q)) 0).val, ((((cfg0.win 2).blk t).view.emb (ix2 p q)) 0).isLt⟩ : Fin 131072) k := by
    intro k; funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 128 + 1 * k.val = k.val; omega
  have h1 : ∀ k : Fin 128, ((cfg0.win 1).blk t).view.emb (ix2 k q)
      = ix2 k (⟨((((cfg0.win 2).blk t).view.emb (ix2 p q)) 1).val, ((((cfg0.win 2).blk t).view.emb (ix2 p q)) 1).isLt⟩ : Fin 128) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  show (∑ k : Fin 128, inA V c (((cfg0.win 0).blk t).view.emb (ix2 p k)) * inB V c (((cfg0.win 1).blk t).view.emb (ix2 k q)))
    = ∑ k : Fin 128, inA V c (ix2 (⟨((((cfg0.win 2).blk t).view.emb (ix2 p q)) 0).val, ((((cfg0.win 2).blk t).view.emb (ix2 p q)) 0).isLt⟩ : Fin 131072) k)
        * inB V c (ix2 k (⟨((((cfg0.win 2).blk t).view.emb (ix2 p q)) 1).val, ((((cfg0.win 2).blk t).view.emb (ix2 p q)) 1).isLt⟩ : Fin 128))
  refine Finset.sum_congr rfl fun k _ => ?_
  rw [h0 k, h1 k]

/-- An index of the output array is in point `t`'s block iff each coordinate is in the block's range on its axis. -/
theorem mem_blk (t : Fin cfg0.N) (i : S131072x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v5).slice (win0_2.rect t)).set ↔ _
  rw [View.set_slice_whole, Rect.mem_set_unit]
  exact Iff.rfl

/-- The row blocks cover the output array: row `r` is in the block of point `r / 4096`. -/
theorem cover (i : S131072x128.Idx) : ∃ t : Fin cfg0.N, (cfg0.win 2).flush t = true ∧ i ∈ ((cfg0.win 2).blk t).view.set := by
  have hN : cfg0.N = 32 := N_0
  have hi0 : (i 0).val < 131072 := (i 0).isLt
  have hi1 : (i 1).val < 128 := (i 1).isLt
  let t : Fin cfg0.N := ⟨(i 0).val / 4096, by rw [hN]; omega⟩
  obtain ⟨e0, e1, e2, e3, e4, e5⟩ := index_facts t
  have ht : t.val = (i 0).val / 4096 := rfl
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The output array after the region: rows times columns of the two inputs as the region finds them. -/
theorem final (c : Dev nD) : (dat0 V c).arrAt 2 cfg0.N = rowsByCols (V c main_arg0) (V c main_v4) :=
  (dat0 V c).arrAt_eq_of_cover 2 (rowsByCols (V c main_arg0) (V c main_v4)) (fun t _ => flushed_eq V c t) cover

end Cert.KernelIdeal.Project

end
-- ==== Proof.FinalizeRegion.lean ====
/-
  The finalize region: after it, its first output array is v · logistic v, for v the first input's entry plus the
  entries of the two one-row inputs at the same column, and its second output array is the zero word everywhere.

  The region has 32 points; point t stages rows 4096·t … 4096·t + 4095 of the first input, the two whole one-row
  inputs, and writes back rows 4096·t … of both outputs. What point t writes back is those rows of ONE whole-array
  function of the three inputs as the region finds them, and the 32 row blocks cover each output array.
  Stated at a parameter `V`, the buffer contents when the region is entered.
-/
import proofs.«141972_j7919919693901_1_alg».proof.Proof.Gen.KernelIdeal.Frame
import proofs.«141972_j7919919693901_1_alg».proof.Proof.Bodies
import Idealize.ShloMosaic.Lib.Pipeline.Value

set_option maxRecDepth 16384

noncomputable section

open scoped BigOperators

namespace Cert.KernelIdeal.Finalize

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The sum an entry is gated on: the array's entry plus the two rows' entries at its column. -/
def presum (A : S131072x128.Idx → EReal) (b2 tp : S1x128.Idx → EReal) (i : S131072x128.Idx) : EReal :=
  A i + b2 (ix2 (0 : Fin 1) (⟨(i 1).val, (i 1).isLt⟩ : Fin 128)) + tp (ix2 (0 : Fin 1) (⟨(i 1).val, (i 1).isLt⟩ : Fin 128))

/-- v · logistic v at every entry, for v the sum above. -/
def gated (A : S131072x128.Idx → EReal) (b2 tp : S1x128.Idx → EReal) : S131072x128.Idx → EReal := fun i =>
  presum A b2 tp i * Ideal.logistic (presum A b2 tp i)

/-- The zero word at every entry. -/
def zeros : S131072x128.Idx → EReal := fun _ => Ideal.ofBits .f32 0x00000000#32

theorem zero_offsets : (![0, 0] : Fin 2 → Nat) = fun _ => 0 := funext fun a => by fin_cases a <;> rfl

/-- The three input arrays as the region finds them, as functions on their indices. -/
abbrev inA (c : Dev nD) : S131072x128.Idx → EReal := V c main_v62
abbrev inB (c : Dev nD) : S1x128.Idx → EReal := V c main_v68
abbrev inT (c : Dev nD) : S1x128.Idx → EReal := V c main_v67

/-- The five index maps over the grid: the row-block index of the first input and of both outputs is the point, and
    every other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back to the first output is block `t` of the gated sum of the three inputs as the region finds them. -/
theorem flushed3_eq (c : Dev nD) (t : Fin cfg1.N) :
    (dat1 V c).flushed 3 t = ((cfg1.win 3).blk t).view.read (Elt Ideal) (gated (V c main_v62) (V c main_v68) (V c main_v67)) := by
  show (cfg1.win 3).cut (grid1.coords t) ((dat1 V c).after 3 t) = _
  rw [after1_3]
  unfold out1_3
  rw [View.canon_unit_zero zero_offsets]
  simp only [View.ld_unit_zero (S := S4096x128) zero_offsets, View.ld_unit_zero (S := S1x128) zero_offsets]
  obtain ⟨e0, e1, e2, e3, e4, e5, e6, e7, e8, e9⟩ := index_facts t
  funext j
  obtain ⟨p, q, rfl⟩ : ∃ (p : Fin 4096) (q : Fin 128), j = ix2 p q := ⟨j 0, j 1, eq_ix2 j⟩
  refine (Bodies.finalize_apply (iblk1 V c 0 t) (iblk1 V c 1 t) (iblk1 V c 2 t) p q).trans ?_
  show (inA V c (((cfg1.win 0).blk t).view.emb (ix2 p q)) + inB V c (((cfg1.win 1).blk t).view.emb (ix2 (0 : Fin 1) q))
        + inT V c (((cfg1.win 2).blk t).view.emb (ix2 (0 : Fin 1) q)))
      * Ideal.logistic (inA V c (((cfg1.win 0).blk t).view.emb (ix2 p q)) + inB V c (((cfg1.win 1).blk t).view.emb (ix2 (0 : Fin 1) q))
        + inT V c (((cfg1.win 2).blk t).view.emb (ix2 (0 : Fin 1) q)))
    = gated (inA V c) (inB V c) (inT V c) (((cfg1.win 3).blk t).view.emb (ix2 p q))
  have h0 : ((cfg1.win 0).blk t).view.emb (ix2 p q) = ((cfg1.win 3).blk t).view.emb (ix2 p q) := by
    funext a; apply Fin.ext
    match a with
    | ⟨0, _⟩ => show win1_0.index t (0 : Fin 2) * 4096 + 1 * p.val = win1_3.index t (0 : Fin 2) * 4096 + 1 * p.val; omega
    | ⟨1, _⟩ => show win1_0.index t (1 : Fin 2) * 128 + 1 * q.val = win1_3.index t (1 : Fin 2) * 128 + 1 * q.val; omega
  have h1 : ((cfg1.win 1).blk t).view.emb (ix2 (0 : Fin 1) q)
      = ix2 (0 : Fin 1) (⟨((((cfg1.win 3).blk t).view.emb (ix2 p q)) 1).val, ((((cfg1.win 3).blk t).view.emb (ix2 p q)) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- What point `t` writes back to the second output is block `t` of the zero array. -/
theorem flushed4_eq (c : Dev nD) (t : Fin cfg1.N) :
    (dat1 V c).flushed 4 t = ((cfg1.win 4).blk t).view.read (Elt Ideal) zeros := by
  show (cfg1.win 4).cut (grid1.coords t) ((dat1 V c).after 4 t) = _
  rw [after1_4]
  unfold out1_4
  rw [View.canon_unit_zero zero_offsets]
  rfl

/-- An index of the first output array is in point `t`'s block iff each coordinate is in the block's range on its axis. -/
theorem mem_blk3 (t : Fin cfg1.N) (i : S131072x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v69_0).slice (win1_3.rect t)).set ↔ _
  rw [View.set_slice_whole, Rect.mem_set_unit]
  exact Iff.rfl

/-- The same for the second output array. -/
theorem mem_blk4 (t : Fin cfg1.N) (i : S131072x128.Idx) :
    i ∈ ((cfg1.win 4).blk t).view.set ↔ ∀ a : Fin 2, win1_4.index t a * S4096x128.size a ≤ (i a).val ∧ (i a).val < win1_4.index t a * S4096x128.size a + S4096x128.size a := by
  show i ∈ ((View.whole main_v69_1).slice (win1_4.rect t)).set ↔ _
  rw [View.set_slice_whole, Rect.mem_set_unit]
  exact Iff.rfl

/-- The row blocks cover the first output array: row `r` is in the block of point `r / 4096`. -/
theorem cover3 (i : S131072x128.Idx) : ∃ t : Fin cfg1.N, (cfg1.win 3).flush t = true ∧ i ∈ ((cfg1.win 3).blk t).view.set := by
  have hN : cfg1.N = 32 := N_1
  have hi0 : (i 0).val < 131072 := (i 0).isLt
  have hi1 : (i 1).val < 128 := (i 1).isLt
  let t : Fin cfg1.N := ⟨(i 0).val / 4096, by rw [hN]; omega⟩
  obtain ⟨e0, e1, e2, e3, e4, e5, e6, e7, e8, e9⟩ := index_facts t
  have ht : t.val = (i 0).val / 4096 := rfl
  refine ⟨t, flush1_3 t, ?_⟩
  rw [mem_blk3]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- … and the second. -/
theorem cover4 (i : S131072x128.Idx) : ∃ t : Fin cfg1.N, (cfg1.win 4).flush t = true ∧ i ∈ ((cfg1.win 4).blk t).view.set := by
  have hN : cfg1.N = 32 := N_1
  have hi0 : (i 0).val < 131072 := (i 0).isLt
  have hi1 : (i 1).val < 128 := (i 1).isLt
  let t : Fin cfg1.N := ⟨(i 0).val / 4096, by rw [hN]; omega⟩
  obtain ⟨e0, e1, e2, e3, e4, e5, e6, e7, e8, e9⟩ := index_facts t
  have ht : t.val = (i 0).val / 4096 := rfl
  refine ⟨t, flush1_4 t, ?_⟩
  rw [mem_blk4]
  intro a
  match a with
  | ⟨0, _⟩ => show win1_4.index t (0 : Fin 2) * 4096 ≤ (i 0).val ∧ (i 0).val < win1_4.index t (0 : Fin 2) * 4096 + 4096; omega
  | ⟨1, _⟩ => show win1_4.index t (1 : Fin 2) * 128 ≤ (i 1).val ∧ (i 1).val < win1_4.index t (1 : Fin 2) * 128 + 128; omega

/-- The first output array after the region: the gated sum of the three inputs as the region finds them. -/
theorem final3 (c : Dev nD) : (dat1 V c).arrAt 3 cfg1.N = gated (V c main_v62) (V c main_v68) (V c main_v67) :=
  (dat1 V c).arrAt_eq_of_cover 3 (gated (V c main_v62) (V c main_v68) (V c main_v67)) (fun t _ => flushed3_eq V c t) cover3

/-- The second output array after the region: zero everywhere. -/
theorem final4 (c : Dev nD) : (dat1 V c).arrAt 4 cfg1.N = zeros :=
  (dat1 V c).arrAt_eq_of_cover 4 zeros (fun t _ => flushed4_eq V c t) cover4

end Cert.KernelIdeal.Finalize

end
-- ==== Proof.KernelValue.lean ====
/-
  The idealized kernel's two result arrays as functions of the launch memory.

  Walking the program from the launch: the first stretch of host operations splits the index input into its node row
  and its hyperedge row and transposes the weight; the projection region leaves rows-times-columns of the node features
  and the transposed weight, which is the reference's matrix product read entry by entry; the stretches between the
  regions aggregate those rows over the incidence list and prepare the bias row and the time row; the finalize region
  leaves the gated sum of the three and an array of zeros. Every argument buffer is read back to the launch memory.
-/
import proofs.«141972_j7919919693901_1_alg».proof.Proof.Between
import proofs.«141972_j7919919693901_1_alg».proof.Proof.ProjectRegion
import proofs.«141972_j7919919693901_1_alg».proof.Proof.FinalizeRegion

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen
open Cert.ReferenceIdeal (ReadP.val_main_v1 ReadP.val_main_v3 ReadP.val_main_v4 ReadP.val_main_v5 ReadP.val_main_v70)

variable (m : (ℓ : Loc nD τ sig) → Buf (Elt Ideal) ℓ) (ρ : Dev nD → PrngReg) (c : Dev nD)

/-! ## The first stretch: what the projection region finds -/

/-- The node features reach the projection region as launched. -/
theorem entry_features : W1 m ρ c (Proc.devRef .tc main_arg0) = m ((c.tc : Thread nD τ).loc main_arg0) := by
  show StableHlo.after hostOps0 (W0 m ρ c) (Proc.devRef .tc main_arg0) = _
  dsimp only [hostOps0]; after_results

/-- The weight reaches it transposed. -/
theorem entry_weight : W1 m ρ c (Proc.devRef .tc main_v4)
    = Cert.ReferenceIdeal.ReadP.val_main_v4 (F := Ideal) (m ((c.tc : Thread nD τ).loc main_arg3)) := by
  show StableHlo.after hostOps0 (W0 m ρ c) (Proc.devRef .tc main_v4) = _
  dsimp only [hostOps0]; after_results; rfl

/-- The node row of the index input. -/
theorem node_words : W1 m ρ c (Proc.devRef .tc main_v1)
    = Cert.ReferenceIdeal.ReadP.val_main_v1 (F := Ideal) (m ((c.tc : Thread nD τ).loc main_arg1)) := by
  show StableHlo.after hostOps0 (W0 m ρ c) (Proc.devRef .tc main_v1) = _
  dsimp only [hostOps0]; after_results; rfl

/-- The hyperedge row of the index input. -/
theorem edge_words : W1 m ρ c (Proc.devRef .tc main_v3)
    = Cert.ReferenceIdeal.ReadP.val_main_v3 (F := Ideal) (m ((c.tc : Thread nD τ).loc main_arg1)) := by
  show StableHlo.after hostOps0 (W0 m ρ c) (Proc.devRef .tc main_v3) = _
  dsimp only [hostOps0]; after_results; rfl

/-- The four arguments the later stretches read are untouched by the first stretch and by the projection region. -/
theorem exit0_arg2 : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  dsimp only [hostOps0]; after_results
theorem exit0_arg4 : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  dsimp only [hostOps0]; after_results
theorem exit0_arg5 : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  dsimp only [hostOps0]; after_results
theorem exit0_arg6 : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  dsimp only [hostOps0]; after_results

/-! ## The projection region -/

/-- Rows times columns against the transposed weight is the reference's matrix product, entry by entry: both are the
    sum over k of features (r, k) · transposed weight (k, j). -/
theorem rows_eq (A : FVec Ideal S131072x128 .f32) (B : FVec Ideal S128x128 .f32) :
    Project.rowsByCols A (Cert.ReferenceIdeal.ReadP.val_main_v4 (F := Ideal) B)
      = Cert.ReferenceIdeal.ReadP.val_main_v5 (F := Ideal) A B := by
  funext i
  rw [Cert.ReferenceIdeal.ReadP.val_main_v5_apply]
  unfold Project.rowsByCols
  refine Finset.sum_congr rfl fun k _ => ?_
  have el : Cert.ReferenceIdeal.ReadP.lidx_main_v5 i k = ix2 (⟨(i 0).val, (i 0).isLt⟩ : Fin 131072) k :=
    funext fun a => Fin.ext (by match a with | ⟨0, _⟩ => rfl | ⟨1, _⟩ => rfl)
  have er : Cert.ReferenceIdeal.ReadP.ridx_main_v5 i k = ix2 k (⟨(i 1).val, (i 1).isLt⟩ : Fin 128) :=
    funext fun a => Fin.ext (by match a with | ⟨0, _⟩ => rfl | ⟨1, _⟩ => rfl)
  rw [el, er]

/-- The projected rows at the projection region's exit: the reference's matrix product of the launched features and weight. -/
theorem projected : W2 m ρ c (Proc.devRef .tc main_v5)
    = Cert.ReferenceIdeal.ReadP.val_main_v5 (F := Ideal) (m ((c.tc : Thread nD τ).loc main_arg0)) (m ((c.tc : Thread nD τ).loc main_arg3)) := by
  refine (W2_arr m ρ c 2).trans ((Project.final (V1 m ρ) c).trans ?_)
  show Project.rowsByCols (W1 m ρ c (Proc.devRef .tc main_arg0)) (W1 m ρ c (Proc.devRef .tc main_v4)) = _
  rw [entry_features, entry_weight]
  exact rows_eq _ _

/-! ## What the finalize region finds -/

/-- The aggregated array: the two-pass aggregation of the reference's projected rows over the launched index rows. -/
theorem entry_aggregated : W9 m ρ c (Proc.devRef .tc main_v62)
    = Cert.Incidence.aggregate
        (Cert.ReferenceIdeal.ReadP.val_main_v5 (F := Ideal) (m ((c.tc : Thread nD τ).loc main_arg0)) (m ((c.tc : Thread nD τ).loc main_arg3)))
        (Cert.ReferenceIdeal.ReadP.val_main_v1 (F := Ideal) (m ((c.tc : Thread nD τ).loc main_arg1)))
        (Cert.ReferenceIdeal.ReadP.val_main_v3 (F := Ideal) (m ((c.tc : Thread nD τ).loc main_arg1))) := by
  refine (Between.between_aggregate (W2 m ρ c)).trans ?_
  rw [projected, W2_of_ne m ρ c main_v1 (by decide), W2_of_ne m ρ c main_v3 (by decide), node_words, edge_words]

/-- The time row: the reference's time-embedding stage of the launched arguments. -/
theorem entry_timeRow : W9 m ρ c (Proc.devRef .tc main_v67)
    = Cert.ReferenceIdeal.ReadP.val_main_v70 (F := Ideal) (m ((c.tc : Thread nD τ).loc main_arg2))
        (m ((c.tc : Thread nD τ).loc main_arg5)) (m ((c.tc : Thread nD τ).loc main_arg6)) := by
  refine (Between.between_timeRow (W2 m ρ c)).trans ?_
  rw [exit0_arg2, exit0_arg5, exit0_arg6]

/-- The bias row: the launched bias vector with a leading unit axis. -/
theorem entry_biasRow : W9 m ρ c (Proc.devRef .tc main_v68)
    = shapeCast S1x128 (m ((c.tc : Thread nD τ).loc main_arg4)) shapeCasts_S128_S1x128 := by
  refine (Between.between_biasRow (W2 m ρ c)).trans ?_
  rw [exit0_arg4]

/-! ## The two results -/

/-- The first result as a function of the launch memory: the gated sum of the aggregated projection, the bias row and
    the time row. -/
def out0 : S131072x128.Idx → EReal :=
  Finalize.gated
    (Cert.Incidence.aggregate
      (Cert.ReferenceIdeal.ReadP.val_main_v5 (F := Ideal) (m ((c.tc : Thread nD τ).loc main_arg0)) (m ((c.tc : Thread nD τ).loc main_arg3)))
      (Cert.ReferenceIdeal.ReadP.val_main_v1 (F := Ideal) (m ((c.tc : Thread nD τ).loc main_arg1)))
      (Cert.ReferenceIdeal.ReadP.val_main_v3 (F := Ideal) (m ((c.tc : Thread nD τ).loc main_arg1))))
    (shapeCast S1x128 (m ((c.tc : Thread nD τ).loc main_arg4)) shapeCasts_S128_S1x128)
    (Cert.ReferenceIdeal.ReadP.val_main_v70 (F := Ideal) (m ((c.tc : Thread nD τ).loc main_arg2)) (m ((c.tc : Thread nD τ).loc main_arg5)) (m ((c.tc : Thread nD τ).loc main_arg6)))

/-- The first result buffer ends at it. -/
theorem result0 : W10 m ρ c (Proc.devRef .tc main_v69_0) = out0 m c := by
  unfold out0
  refine (W10_arr m ρ c 3).trans ((Finalize.final3 (V9 m ρ) c).trans ?_)
  show Finalize.gated (W9 m ρ c (Proc.devRef .tc main_v62)) (W9 m ρ c (Proc.devRef .tc main_v68)) (W9 m ρ c (Proc.devRef .tc main_v67)) = _
  rw [entry_aggregated, entry_biasRow, entry_timeRow]

/-- The second result: zero everywhere. -/
theorem result1 : W10 m ρ c (Proc.devRef .tc main_v69_1) = Finalize.zeros :=
  (W10_arr m ρ c 4).trans (Finalize.final4 (V9 m ρ) c)

end Cert.KernelIdeal.KValue

end
-- ==== Proof.RefValue.lean ====
/-
  The reference's two results as the finalize region's two functions.

  The reference adds to its aggregated array the bias vector (as a row broadcast down the rows), then the time row
  (broadcast down the rows), and multiplies the sum v by 1 / (1 + exp (-v)). On the extended reals that quotient is
  the logistic function by definition, with the literal 1.0 denoting the real 1; the bias read through "one row,
  broadcast" is the bias read through "a leading unit axis added"; so entry (r, j) is v · logistic v for
  v = aggregated (r, j) + bias j + time-row j: the gated sum that the finalize region computes.
  Its second result is the zero literal everywhere.
-/
import proofs.«141972_j7919919693901_1_alg».proof.Proof.FinalizeRegion
import proofs.«141972_j7919919693901_1_alg».proof.Proof.Incidence
import Idealize.ShloMosaic.Lib.ValueLayout

noncomputable section

namespace Cert.ReferenceIdeal.RefValue

open Idealize.ShloMosaic Idealize.ShloMosaic.ValueIdx Cert.ReferenceIdeal Cert.ReferenceIdeal.Gen
open Cert.KernelIdeal.Finalize (presum gated zeros)

/-- The literal 1.0 denotes the real 1. -/
theorem one_word : Ideal.ofBits .f32 0x3F800000#32 = 1 := by
  simp [Ideal.ofBits, Ideal.ieee, -EReal.coe_mul]; norm_num

/-- The bias vector with a leading unit axis, as the finalize region finds it. -/
abbrev biasRow (x4 : FVec Ideal S128 .f32) : Cert.KernelIdeal.S1x128.Idx → EReal :=
  shapeCast Cert.KernelIdeal.S1x128 x4 Cert.KernelIdeal.Gen.shapeCasts_S128_S1x128

/-- The sum the reference gates, at an entry: the aggregated entry plus the bias and the time row at its column. -/
theorem reference_presum (x0 : FVec Ideal S131072x128 .f32) (x1 : IVec S2x2097152 32) (x2 : FVec Ideal S1x512 .f32)
    (x3 : FVec Ideal S128x128 .f32) (x4 : FVec Ideal S128 .f32) (x5 : FVec Ideal S128x512 .f32) (x6 : FVec Ideal S128 .f32)
    (i : S131072x128.Idx) :
    ReadP.val_main_v72 (F := Ideal) x0 x1 x2 x3 x4 x5 x6 i
      = presum (ReadP.val_main_v62 (F := Ideal) x0 x1 x3) (biasRow x4) (ReadP.val_main_v70 (F := Ideal) x2 x5 x6) i := by
  rw [ReadP.val_main_v72_apply, ReadP.val_main_v65_apply, ReadP.val_main_v64_apply, ReadP.val_main_v63_apply, ReadP.val_main_v71_apply]
  have hb : biasRow x4 (ix2 (0 : Fin 1) (⟨(i 1).val, (i 1).isLt⟩ : Fin 128)) = x4 (ix1 (⟨(i 1).val, (i 1).isLt⟩ : Fin 128)) :=
    shapeCast_a_1a_apply x4 _ 0 _
  have e1 : ReadP.idx_main_v71 i = ix2 (0 : Fin 1) (⟨(i 1).val, (i 1).isLt⟩ : Fin 128) :=
    funext fun a => Fin.ext (by match a with | ⟨0, _⟩ => rfl | ⟨1, _⟩ => rfl)
  have e2 : ReadP.idx_main_v63 (ReadP.idx_main_v64 i) = ix1 (⟨(i 1).val, (i 1).isLt⟩ : Fin 128) :=
    funext fun a => Fin.ext (by match a with | ⟨0, _⟩ => rfl)
  unfold presum
  rw [hb, e1, e2]
  rfl

/-- The reference's first result is the gated sum of its aggregated array, the bias row and the time row. -/
theorem reference_gated (x0 : FVec Ideal S131072x128 .f32) (x1 : IVec S2x2097152 32) (x2 : FVec Ideal S1x512 .f32)
    (x3 : FVec Ideal S128x128 .f32) (x4 : FVec Ideal S128 .f32) (x5 : FVec Ideal S128x512 .f32) (x6 : FVec Ideal S128 .f32) :
    ReadP.val_main_v73 (F := Ideal) x0 x1 x2 x3 x4 x5 x6
      = gated (ReadP.val_main_v62 (F := Ideal) x0 x1 x3) (biasRow x4) (ReadP.val_main_v70 (F := Ideal) x2 x5 x6) := by
  funext i
  rw [ReadP.val_main_v73_apply, ReadP.val_main_call3_v5_apply, ReadP.val_main_call3_v4_apply, ReadP.val_main_call3_cst_0_apply,
    ReadP.val_main_call3_v3_apply, ReadP.val_main_call3_v2_apply, ReadP.val_main_call3_cst_apply,
    ReadP.val_main_call3_v1_apply, ReadP.val_main_call3_v0_apply, reference_presum]
  unfold gated
  simp only [Ideal.ofBits_def, one_word, Ideal.mulf_def, Ideal.hostDivf_def, Ideal.addf_def, Ideal.hostUnary_exp_def,
    Ideal.hostNegf_def, Ideal.negf_def, Ideal.logistic]

/-- The reference's second result is the zero literal everywhere. -/
theorem reference_zeros :
    broadcastInDim S131072x128 ![] bcast_S_S131072x128 (constant (F := Ideal) S_ .f32 0x00000000#32) = zeros := by
  funext i
  rfl

end Cert.ReferenceIdeal.RefValue

end
-- ==== Proof.lean ====
/-
  A hypergraph convolution block: project the node features (x · Wᵀ), aggregate the projected rows over the incidence
  list (nodes → hyperedges → nodes, each pass weighted by reciprocal counts), add the bias and the projected time
  embedding, and gate the sum v by v · logistic v; the second result is an array of zeros.

  The kernel computes the projection and the final gate in two pipelined regions of 32 row blocks each, with the
  aggregation and the time-embedding projection as host operations between them; the reference is host operations
  throughout. On the extended reals the two programs agree entry by entry, with no use of the inputs' finiteness:
  • the projection region's matrix product into a zero accumulator is the reference's matrix product: both are the sum
    over k of x (r, k) · Wᵀ (k, j), a change of float format being the identity (`KValue.rows_eq`);
  • the aggregation is the same operations on both sides, kept closed as one function (`Incidence.aggregate`);
  • the kernel's logistic is the reference's 1 / (1 + exp (-v)) by definition, the literal 1.0 denoting 1, and the
    bias row reads the same entry of the bias vector on both sides (`RefValue.reference_gated`).
  The three frames are the generated frame certificates (the reference's is its run with the results dropped); the
  idealization rewrote nothing, so the fourth conjunct is trivial.
-/
import proofs.«141972_j7919919693901_1_alg».proof.Defs
import proofs.«141972_j7919919693901_1_alg».proof.Proof.Gen.Kernel
import proofs.«141972_j7919919693901_1_alg».proof.Proof.Gen.Kernel.Frame
import proofs.«141972_j7919919693901_1_alg».proof.Proof.Gen.KernelIdeal
import proofs.«141972_j7919919693901_1_alg».proof.Proof.Gen.KernelIdeal.Frame
import proofs.«141972_j7919919693901_1_alg».proof.Proof.Gen.ReferenceIdeal
import proofs.«141972_j7919919693901_1_alg».proof.Proof.Gen.Pre_finite_inputs
import proofs.«141972_j7919919693901_1_alg».proof.Proof.RefRun
import proofs.«141972_j7919919693901_1_alg».proof.Proof.RefRead
import proofs.«141972_j7919919693901_1_alg».proof.Proof.NamedRun
import proofs.«141972_j7919919693901_1_alg».proof.Proof.KernelValue
import proofs.«141972_j7919919693901_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the seven arguments both programs end with the gated sum of the aggregated projection,
    the bias row and the time row in their first result, and zeros in their second. -/
theorem algebraic : Cert.algebraic_KernelIdeal_ReferenceIdeal := by
  intro m ρ m' ρ' _ hagree
  refine ⟨fun c => Cert.KernelIdeal.KValue.out0 m c, fun _ => Cert.KernelIdeal.Finalize.zeros,
    (θ_run Cert.KernelIdeal.defs _ _).mono (fun r h c => ?_) (Cert.KernelIdeal.Named.run_outputs (F := Ideal) m ρ),
    (θ_run Cert.ReferenceIdeal.defs _ _).mono (fun r h c => ?_) (Cert.ReferenceIdeal.ValueP.run (F := Ideal) m' ρ')⟩
  · obtain ⟨h0, h1, hargs⟩ := h c
    exact ⟨h0.trans (Cert.KernelIdeal.KValue.result0 m ρ c), h1.trans (Cert.KernelIdeal.KValue.result1 m ρ c), hargs⟩
  · obtain ⟨h0, h1, hargs⟩ := h c
    obtain ⟨a0, a1, a2, a3, a4, a5, a6⟩ := hagree c
    refine ⟨h0.trans ?_, h1.trans Cert.ReferenceIdeal.RefValue.reference_zeros, hargs⟩
    rw [Cert.ReferenceIdeal.ReadP.val_main_v73_eq, Cert.ReferenceIdeal.RefValue.reference_gated,
      Cert.Incidence.reference_aggregate, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
